-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x1024 : Shape := ⟨2, ![1024, 1024]⟩
abbrev S1024 : Shape := ⟨1, ![1024]⟩
abbrev S32x1024x1024 : Shape := ⟨3, ![32, 1024, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn_part1 {F : FTy → Type} [FloatOps F] (main_arg4 : FVec F S32x1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S32x1024x1024 .f32 := Host.absf main_arg4
  let main_cst_6 : FVec F S_ .f32 := constant S_ .f32 0x7F800000#32
  let main_v20 : FVec F S32x1024x1024 .f32 := broadcastInDim S32x1024x1024 ![] bcast_S_S32x1024x1024 main_cst_6
  let main_v21 : IVec S32x1024x1024 1 := cmpf .olt main_v19 main_v20
  let main_c_7 : IVec S_ 1 := constantI S_ 1 1#1
  let main_v22 : IVec S_ 1 := (fun x v => Host.reduce IntOp.andi x v reducesTo_S32x1024x1024_S_d0_1_2 h_S_) main_v21 main_c_7
  let main_v23 : IVec S_ 1 := andi main_v18 main_v22
  main_v23

def fn {F : FTy → Type} [FloatOps F] (main_arg0 : FVec F S32x512x1024 .f32) (main_arg1 : FVec F S1024x1024 .f32) (main_arg2 : FVec F S1024x1024 .f32) (main_arg3 : FVec F S1024 .f32) (main_arg4 : FVec F S32x1024x1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32x512x1024 : Shape := ⟨3, ![32, 512, 1024]⟩
abbrev S1024x1024 : Shape := ⟨2, ![1024, 1024]⟩
abbrev S1024 : Shape := ⟨1, ![1024]⟩
abbrev S32x1024x1024 : Shape := ⟨3, ![32, 1024, 1024]⟩
abbrev S_ : Shape := ⟨0, ![]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩

abbrev nBuf : Space → Nat
  | .hbm => 13
  | .vmem => 9
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S32x1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S32x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x1024x1024.size a
  hwx0_3 : ∀ i : grid0.Coords, EltTy.bits .f32 = 32 ∨ (Rect.block (s := S32x1024x1024) S1x1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S32x512x1024.size a
  hwx0_5 : ∀ i : grid0.Coords, EltTy.bits .f32 = 32 ∨ (Rect.block (s := S32x512x1024) S1x512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x1024 : Shape := ⟨2, ![1024, 1024]⟩
abbrev S1024 : Shape := ⟨1, ![1024]⟩
abbrev S32x1024x1024 : Shape := ⟨3, ![32, 1024, 1024]⟩
abbrev S_ : Shape := ⟨0, ![]⟩
abbrev S1x1024x1024 : Shape := ⟨3, ![1, 1024, 1024]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S32x1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S32x1024x1024, .f32⟩
  | .hbm, ⟨11, _⟩ => ⟨S32x1024x1024, .f32⟩
  | .hbm, ⟨12, _⟩ => ⟨S1x1024x1024, .f32⟩
  | .hbm, ⟨13, _⟩ => ⟨S32x1024x1024, .f32⟩
  | .hbm, ⟨14, _⟩ => ⟨S32x1024x1024, .f32⟩
  | .hbm, ⟨15, _⟩ => ⟨S32x512x1024, .f32⟩
  | .hbm, ⟨16, _⟩ => ⟨S1x1x1024, .f32⟩
  | .hbm, ⟨17, _⟩ => ⟨S32x512x1024, .f32⟩
  | .hbm, ⟨18, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  dot_S32x512x1024_S32x1024x1024_S32x512x1024_2_2_1_1_0_0_wf : DotDims.WF S32x512x1024 S32x1024x1024 S32x512x1024 [2] [2] [1] [1] [0] [0]

variable [Facts₀]

def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf

class Facts : Prop extends Facts₀ where

variable [Facts]
-- ==== Proof.SampledLinear.lean ====
/-
  The function both programs compute, over the extended reals.

  A linear layer whose weight is sampled per batch element: for batch element `b` the weight matrix is
  `W_b(o, k) = mean(o, k) + noise(b, o, k) · exp(½ · logvar(o, k))`, and the layer's value at row `l`, output
  feature `o` is `Σ_k x(b, l, k) · W_b(o, k) + bias(o)`: the contraction runs over the last axis of both
  the input and the weight. The half is the binary32 word 0x3F000000, kept as a word: both programs
  spell it with that word, so it is never evaluated.
-/
import Idealize.ShloMosaic.PureOps.Ideal
import Idealize.ShloMosaic.Lib.ValueIdx

noncomputable section

namespace Cert.SampledLinear

open Idealize.ShloMosaic Idealize.ShloMosaic.ValueIdx
open scoped BigOperators

/-- The input's and the result's shape: batch × rows × features. -/
abbrev SAct : Shape := ⟨3, ![32, 512, 1024]⟩
/-- The shape of the weight's mean and log-variance: output features × input features. -/
abbrev SWeight : Shape := ⟨2, ![1024, 1024]⟩
/-- The bias's shape. -/
abbrev SBias : Shape := ⟨1, ![1024]⟩
/-- The noise's shape: one weight-shaped sample per batch element. -/
abbrev SNoise : Shape := ⟨3, ![32, 1024, 1024]⟩

/-- The standard deviation of weight entry `(o, k)`: `exp(½ · logvar(o, k))`. -/
def std (logvar : SWeight.Idx → EReal) (o k : Fin 1024) : EReal :=
  Ideal.exp (Ideal.ofBits .f32 0x3F000000#32 * logvar (ix2 o k))

/-- Batch element `b`'s sampled weight at `(o, k)`: the mean plus the noise scaled by the standard deviation. -/
def weight (mean logvar : SWeight.Idx → EReal) (noise : SNoise.Idx → EReal) (b : Fin 32) (o k : Fin 1024) : EReal :=
  mean (ix2 o k) + noise (ix3 b o k) * std logvar o k

/-- The layer at batch element `b`, row `l`, output feature `o`: the inner product of input row `(b, l)` with row `o`
    of batch element `b`'s sampled weight, plus the bias of feature `o`. -/
def outAt (x : SAct.Idx → EReal) (mean logvar : SWeight.Idx → EReal) (bias : SBias.Idx → EReal) (noise : SNoise.Idx → EReal)
    (b : Fin 32) (l : Fin 512) (o : Fin 1024) : EReal :=
  (∑ k : Fin 1024, x (ix3 b l k) * weight mean logvar noise b o k) + bias (ix1 o)

/-- The layer as an array: `outAt` at the index's three coordinates. -/
def out (x : SAct.Idx → EReal) (mean logvar : SWeight.Idx → EReal) (bias : SBias.Idx → EReal) (noise : SNoise.Idx → EReal) :
    SAct.Idx → EReal :=
  fun i => outAt x mean logvar bias noise ⟨(i 0).val, (i 0).isLt⟩ ⟨(i 1).val, (i 1).isLt⟩ ⟨(i 2).val, (i 2).isLt⟩

/-- At an index given by its coordinates the array reads `outAt` there. -/
theorem out_ix3 (x : SAct.Idx → EReal) (mean logvar : SWeight.Idx → EReal) (bias : SBias.Idx → EReal) (noise : SNoise.Idx → EReal)
    (b : Fin 32) (l : Fin 512) (o : Fin 1024) :
    out x mean logvar bias noise (ix3 b l o) = outAt x mean logvar bias noise b l o := rfl

end Cert.SampledLinear

end
-- ==== Proof.ReferenceIsLayer.lean ====
/-
  The reference computes the sampled linear layer.

  Read one operation at a time, the reference broadcasts `exp(½ · logvar)` and the mean over the batch axis, forms
  `mean + noise · exp(½ · logvar)` as a [32, 1024, 1024] array, contracts it with the input over the last axis of
  both (batch axis 0 against batch axis 0), and adds the bias broadcast over batch and rows. At an index
  `(b, l, o)` that is `Σ_k x(b, l, k) · (mean(o, k) + noise(b, o, k) · exp(½ · logvar(o, k))) + bias(o)`: the
  broadcasts only drop the unit axes they added.
-/
import proofs.«103219_j7292854469138_2_alg».proof.Proof.Gen.ReferenceIdeal.Read
import proofs.«103219_j7292854469138_2_alg».proof.Proof.SampledLinear

noncomputable section

namespace Cert.ReferenceIdeal.Layer

open Cert.ReferenceIdeal Cert.ReferenceIdeal.Gen Cert.ReferenceIdeal.Read
open Idealize.ShloMosaic Idealize.ShloMosaic.ValueIdx
open scoped BigOperators

/-- The reference's last stage, as a function of the five arguments, is the layer. -/
theorem stage_eq (x0 : (⟨S32x512x1024, .f32⟩ : BufTy).Contents (Elt Ideal)) (x1 x2 : (⟨S1024x1024, .f32⟩ : BufTy).Contents (Elt Ideal))
    (x3 : (⟨S1024, .f32⟩ : BufTy).Contents (Elt Ideal)) (x4 : (⟨S32x1024x1024, .f32⟩ : BufTy).Contents (Elt Ideal)) :
    val_main_v12 (F := Ideal) x0 x1 x2 x3 x4 = Cert.SampledLinear.out x0 x1 x2 x3 x4 := by
  funext i
  -- the index's coordinates, typed by the literal extents
  obtain ⟨b, l, o, rfl⟩ : ∃ (b : Fin 32) (l : Fin 512) (o : Fin 1024), i = ix3 b l o := ⟨i 0, i 1, i 2, eq_ix3 i⟩
  -- the input row read by the contraction, and the weight entry it meets
  have el : ∀ k : Fin 1024, lidx_main_v9 (ix3 b l o) k = ix3 b l k := fun k =>
    funext fun a => Fin.ext (by match a with | ⟨0, _⟩ => rfl | ⟨1, _⟩ => rfl | ⟨2, _⟩ => rfl)
  have er : ∀ k : Fin 1024, ridx_main_v9 (ix3 b l o) k = ix3 b o k := fun k =>
    funext fun a => Fin.ext (by match a with | ⟨0, _⟩ => rfl | ⟨1, _⟩ => rfl | ⟨2, _⟩ => rfl)
  -- the two broadcasts over the batch axis drop it again
  have em : ∀ k : Fin 1024, idx_main_v6 (idx_main_v7 (ix3 b o k)) = ix2 o k := fun k =>
    funext fun a => Fin.ext (by match a with | ⟨0, _⟩ => rfl | ⟨1, _⟩ => rfl)
  have es : ∀ k : Fin 1024, idx_main_v3 (idx_main_v4 (ix3 b o k)) = ix2 o k := fun k =>
    funext fun a => Fin.ext (by match a with | ⟨0, _⟩ => rfl | ⟨1, _⟩ => rfl)
  -- the bias's broadcast over batch and rows keeps the feature
  have eb : idx_main_v10 (idx_main_v11 (ix3 b l o)) = ix1 o :=
    funext fun a => Fin.ext (by match a with | ⟨0, _⟩ => rfl)
  rw [Cert.SampledLinear.out_ix3, val_main_v12_apply, val_main_v9_apply, val_main_v11_apply, val_main_v10_apply, eb]
  unfold Cert.SampledLinear.outAt Cert.SampledLinear.weight Cert.SampledLinear.std
  show (∑ k : Fin 1024, _) + _ = (∑ k : Fin 1024, _) + _
  refine congrArg (· + x3 (ix1 o)) (Finset.sum_congr rfl fun k _ => ?_)
  rw [el, er, val_main_v8_apply, val_main_v7_apply, val_main_v6_apply, em, val_main_v5_apply, val_main_v4_apply,
    val_main_v3_apply, es, val_main_v2_apply, val_main_v1_apply, val_main_v0_apply, val_main_cst_apply]
  rfl

end Cert.ReferenceIdeal.Layer

end
-- ==== Proof.LibRowDot.lean ====
/-
  A matrix product that contracts the LAST axis of both operands, read at an index over the extended reals.

  For an [M, K] left operand and a [P, K] right operand (the shape of `x · Wᵀ` with `W` stored row-major by output
  feature), the product into a zero accumulator, read at `(p, q)`, is `Σ_k l(p, k) · r(q, k)`: the inner product of
  row `p` of the left operand with row `q` of the right one. The same holds of the host's general dot with no
  batch axis. The four facts about the dimension record that say which operand axis each result axis and the
  contraction position feed are hypotheses: a program proves them of its own record by unfolding.
-/
import Idealize.ShloMosaic.Lib.ValueIdx
import Idealize.ShloMosaic.PureOps.Ideal.Laws

noncomputable section

namespace Cert.LibRowDot

open Idealize.ShloMosaic Idealize.ShloMosaic.ValueIdx
open scoped BigOperators

variable {M K P : Nat} {φ₁ φ₂ : FTy}

/-- Both operand indices at result index `(p, q)` and contraction position `k`: `(p, k)` on the left, `(q, k)` on the
    right. -/
theorem operand_indices (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (p : Fin M) (q : Fin P) (k : Fin K) :
    D.lhsIdx (ix2 p q) ((contrEquiv1 D K hr hs).symm k) = ix2 p k
      ∧ D.rhsIdx (ix2 p q) ((contrEquiv1 D K hr hs).symm k) = ix2 q k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- The kernel's matrix product into a zero accumulator, at `(p, q)`: `Σ_k l(p, k) · r(q, k)`. -/
theorem matmul_zero_apply (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (prec : Option ContractPrecision) (lhs : FVec Ideal ⟨2, ![M, K]⟩ φ₁) (rhs : FVec Ideal ⟨2, ![P, K]⟩ φ₂) (p : Fin M) (q : Fin P) :
    FloatOps.matmul D prec lhs rhs (constant (F := Ideal) ⟨2, ![M, P]⟩ .f32 0x00000000#32) (ix2 p q)
      = ∑ k : Fin K, lhs (ix2 p k) * rhs (ix2 q k) := by
  refine (Ideal.matmul_constant_zero_apply D prec lhs rhs (ix2 p q)).trans ?_
  rw [← Equiv.sum_comp (contrEquiv1 D K hr hs).symm]
  refine Finset.sum_congr rfl fun k _ => ?_
  obtain ⟨el, er⟩ := operand_indices D hr hs hl0 hl1 hr0 hr1 p q k
  rw [el, er]

/-- The host's general dot with the same dimension record, at `(p, q)`: the same sum. -/
theorem dotGeneral_apply (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (prec : Option ContractPrecision) (sched : HostSchedule) (lhs : FVec Ideal ⟨2, ![M, K]⟩ φ₁) (rhs : FVec Ideal ⟨2, ![P, K]⟩ φ₂)
    (p : Fin M) (q : Fin P) :
    FloatOps.dotGeneral D prec sched lhs rhs (ix2 p q) = ∑ k : Fin K, lhs (ix2 p k) * rhs (ix2 q k) := by
  refine (Ideal.dotGeneral_apply D prec sched lhs rhs (ix2 p q)).trans ?_
  rw [← Equiv.sum_comp (contrEquiv1 D K hr hs).symm]
  refine Finset.sum_congr rfl fun k _ => ?_
  obtain ⟨el, er⟩ := operand_indices D hr hs hl0 hl1 hr0 hr1 p q k
  rw [el, er]

end Cert.LibRowDot

end
-- ==== Proof.BodyEntry.lean ====
/-
  One entry of what the kernel body stores.

  At a grid point the body holds one batch element's input rows `X` ([1, 512, 1024]), that element's noise `E`
  ([1, 1024, 1024]), the weight's mean `M` and standard deviation `S` ([1024, 1024] each) and the bias row `B`
  ([1, 1024]). It forms the sampled weight `M + E · S` entry by entry, multiplies the input rows by it
  contracting the last axis of both into a zero accumulator, and adds the bias row to every row. So entry
  `(l, o)` of what it stores is `Σ_k X(0, l, k) · (M(o, k) + E(0, o, k) · S(o, k)) + B(0, o)`: the changes of
  float format are the identity on extended reals, the casts only add or drop the unit axis, and the zero
  accumulator contributes nothing.
-/
import proofs.«103219_j7292854469138_2_alg».proof.Proof.Gen.KernelIdeal.Skeleton
import proofs.«103219_j7292854469138_2_alg».proof.Proof.LibRowDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The product's operand indices: rows are kept, the last axis of both operands is contracted -/

/-- The left operand is read in the result's row. -/
theorem lhs_row (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- Its column is the contraction position. -/
theorem lhs_col (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
/-- The right operand is read in the row the result's column names. -/
theorem rhs_row (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- Its column too is the contraction position. -/
theorem rhs_col (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- The product into a zero accumulator, at `(l, o)`: the inner product of row `l` of the left operand with row `o`
    of the right one. -/
theorem product_entry (lhs : FVec Ideal S512x1024 .bf16) (rhs : FVec Ideal S1024x1024 .bf16) (l : Fin 512) (o : Fin 1024) :
    matmul dot_S512x1024_S1024x1024_S512x1024_1_1_0_0_n_n none lhs rhs (constant (F := Ideal) S512x1024 .f32 0x00000000#32) (ix2 l o)
      = ∑ k : Fin 1024, lhs (ix2 l k) * rhs (ix2 o k) :=
  Cert.LibRowDot.matmul_zero_apply dot_S512x1024_S1024x1024_S512x1024_1_1_0_0_n_n rfl rfl lhs_row lhs_col rhs_row rhs_col none lhs rhs l o

/-! ## The stored entry -/

/-- Entry `(u, l, o)` of the stored block, from the five loaded blocks. -/
theorem stored_entry (X : Vec Ideal S1x512x1024 .f32) (E : Vec Ideal S1x1024x1024 .f32) (M S : Vec Ideal S1024x1024 .bf16)
    (B : Vec Ideal S1x1024 .f32) (u : Fin 1) (l : Fin 512) (o : Fin 1024) :
    k0_pay1 X E M S B (ix3 u l o)
      = (∑ k : Fin 1024, X (ix3 (0 : Fin 1) l k) * (M (ix2 o k) + E (ix3 (0 : Fin 1) o k) * S (ix2 o k))) + B (ix2 (0 : Fin 1) o) := by
  unfold k0_pay1
  refine (shapeCast_ab_1ab_apply _ _ u l o).trans ?_
  show matmul dot_S512x1024_S1024x1024_S512x1024_1_1_0_0_n_n none _ _ _ (ix2 l o) + broadcastTo S512x1024 _ _ (ix2 l o) = _
  refine congrArg₂ (· + ·) ((product_entry _ _ l o).trans (Finset.sum_congr rfl fun k _ => ?_)) ?_
  · show shapeCast S512x1024 X _ (ix2 l k) * (shapeCast S1024x1024 M _ (ix2 o k) + shapeCast S1024x1024 E _ (ix2 o k) * shapeCast S1024x1024 S _ (ix2 o k)) = _
    rw [shapeCast_1ab_ab_apply, shapeCast_1ab_ab_apply, shapeCast_self, shapeCast_self]
  · exact (broadcastTo_1b_ab_apply _ _ l o).trans (congrFun (shapeCast_self B _) _)

end Cert.KernelIdeal.Body

end
-- ==== Proof.HostPrefix.lean ====
/-
  What the kernel's grid finds in the three arrays computed before it.

  Before the grid starts the program casts the weight's mean to bf16, computes `exp(½ · logvar)` and casts it to
  bf16, and reshapes the bias to one row. On extended reals a change of float format is the identity and the
  reshape only adds a unit axis, so the grid finds: the mean itself; at `(o, k)` the standard deviation
  `exp(½ · logvar(o, k))`; and at `(0, o)` the bias of feature `o`.
-/
import proofs.«103219_j7292854469138_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The mean, cast to bf16, is the mean. -/
theorem mean_found (c : Dev nD) :
    (V m c main_v3 : S1024x1024.Idx → EReal) = (m ((c : Thread nD τ).loc main_arg1) : S1024x1024.Idx → EReal) := by
  dsimp only [Gen.V, Gen.hostOps0]; after_results; rfl

/-- The standard deviation as the operations compute it from the log-variance. -/
theorem std_found (c : Dev nD) :
    (V m c main_v4 : S1024x1024.Idx → EReal)
      = Host.exp (mulf (broadcastInDim S1024x1024 ![] bcast_S_S1024x1024 (constant (F := Ideal) S_ .f32 0x3F000000#32))
          (m ((c : Thread nD τ).loc main_arg2) : FVec Ideal S1024x1024 .f32)) := by
  dsimp only [Gen.V, Gen.hostOps0]; after_results; rfl

/-- At `(o, k)` it is `exp(½ · logvar(o, k))`. -/
theorem std_found_apply (c : Dev nD) (o k : Fin 1024) :
    (V m c main_v4 : S1024x1024.Idx → EReal) (ix2 o k)
      = Ideal.exp (Ideal.ofBits .f32 0x3F000000#32 * (m ((c : Thread nD τ).loc main_arg2) : S1024x1024.Idx → EReal) (ix2 o k)) := by
  rw [std_found]
  show Ideal.exp (broadcastInDim S1024x1024 ![] bcast_S_S1024x1024 (constant (F := Ideal) S_ .f32 0x3F000000#32) (ix2 o k) * _) = _
  rw [broadcastInDim_apply _ bcast_S_S1024x1024 _ (ix2 o k) (fun a => a.elim0) (fun a => a.elim0)]
  rfl

/-- The bias as one row. -/
theorem bias_found (c : Dev nD) :
    (V m c main_v5 : S1x1024.Idx → EReal)
      = shapeCast S1x1024 (m ((c : Thread nD τ).loc main_arg3) : S1024.Idx → EReal) shapeCasts_S1024_S1x1024 := by
  dsimp only [Gen.V, Gen.hostOps0]; after_results; rfl

/-- At `(0, o)` the row holds the bias of feature `o`. -/
theorem bias_found_apply (c : Dev nD) (u : Fin 1) (o : Fin 1024) :
    (V m c main_v5 : S1x1024.Idx → EReal) (ix2 u o) = (m ((c : Thread nD τ).loc main_arg3) : S1024.Idx → EReal) (ix1 o) := by
  rw [bias_found]
  exact shapeCast_a_1a_apply _ _ u o

end Cert.KernelIdeal.Prefix

end
-- ==== Proof.GridCover.lean ====
/-
  From the grid's blocks to the whole result array.

  The grid has one point per batch element. Point `t` stages rows `(t, ·, ·)` of the input and of the noise, the
  whole mean, the whole standard deviation and the bias row, and writes back rows `(t, ·, ·)` of the result. So
  what point `t` writes at `(0, l, o)` of its block is the layer at `(t, l, o)` of the argument arrays: the body's
  stored entry with each loaded block read where the window put it. The 32 blocks are the 32 batch slices of
  the result, so every index `(b, l, o)` of the result lies in the block of point `b`, and the array ends
  holding the layer everywhere.
-/
import proofs.«103219_j7292854469138_2_alg».proof.Proof.Gen.KernelIdeal.Value
import proofs.«103219_j7292854469138_2_alg».proof.Proof.SampledLinear
import proofs.«103219_j7292854469138_2_alg».proof.Proof.BodyEntry
import proofs.«103219_j7292854469138_2_alg».proof.Proof.HostPrefix

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The layer of the argument arrays as launched on device `c`. -/
abbrev layer (c : Dev nD) : S32x512x1024.Idx → EReal :=
  Cert.SampledLinear.out (m ((c : Thread nD τ).loc main_arg0)) (m ((c : Thread nD τ).loc main_arg1)) (m ((c : Thread nD τ).loc main_arg2)) (m ((c : Thread nD τ).loc main_arg3)) (m ((c : Thread nD τ).loc main_arg4))

/-- A grid point as a batch element. -/
abbrev batchOf (t : Fin cfg0.N) : Fin 32 := ⟨t.val, lt_of_lt_of_eq t.isLt N_0⟩

/-- Where each window's block sits at point `t`, decided over the 32 points: the input, the noise and the result move
    with the point along the batch axis; the mean, the standard deviation and the bias row stay. -/
theorem block_index : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-! ## Each staged block, read where the window put it -/

/-- The input's block at point `t` is batch slice `t` of the input. -/
theorem input_block (c : Dev nD) (t : Fin cfg0.N) (l : Fin 512) (k : Fin 1024) :
    (iblk m c 0 t : Vec Ideal S1x512x1024 .f32) (ix3 (0 : Fin 1) l k)
      = ((m ((c : Thread nD τ).loc main_arg0)) : S32x512x1024.Idx → EReal) (ix3 (batchOf t) l k) := by
  obtain ⟨⟨e0, e1, e2⟩, -⟩ := block_index t
  show V m c main_arg0 (((cfg0.win 0).blk t).view.emb (ix3 (0 : Fin 1) l k)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * l.val = l.val; omega
  | ⟨2, _⟩ => show win0_0.index t (2 : Fin 3) * 1024 + 1 * k.val = k.val; omega

/-- The noise's block at point `t` is batch slice `t` of the noise. -/
theorem noise_block (c : Dev nD) (t : Fin cfg0.N) (o k : Fin 1024) :
    (iblk m c 3 t : Vec Ideal S1x1024x1024 .f32) (ix3 (0 : Fin 1) o k)
      = ((m ((c : Thread nD τ).loc main_arg4)) : S32x1024x1024.Idx → EReal) (ix3 (batchOf t) o k) := by
  obtain ⟨-, -, -, ⟨e0, e1, e2⟩, -⟩ := block_index t
  show V m c main_arg4 (((cfg0.win 3).blk t).view.emb (ix3 (0 : Fin 1) o k)) = _
  rw [V_main_arg4]
  refine congrArg _ (funext fun a => Fin.ext ?_)
  match a with
  | ⟨0, _⟩ => show win0_3.index t (0 : Fin 3) * 1 + 1 * 0 = t.val; omega
  | ⟨1, _⟩ => show win0_3.index t (1 : Fin 3) * 1024 + 1 * o.val = o.val; omega
  | ⟨2, _⟩ => show win0_3.index t (2 : Fin 3) * 1024 + 1 * k.val = k.val; omega

/-- The mean's block is the whole mean, at every point. -/
theorem mean_block (c : Dev nD) (t : Fin cfg0.N) (o k : Fin 1024) :
    (iblk m c 1 t : Vec Ideal S1024x1024 .bf16) (ix2 o k)
      = ((m ((c : Thread nD τ).loc main_arg1)) : S1024x1024.Idx → EReal) (ix2 o k) := by
  obtain ⟨-, ⟨e0, e1⟩, -⟩ := block_index t
  show V m c main_v3 (((cfg0.win 1).blk t).view.emb (ix2 o k)) = _
  refine (congrArg (V m c main_v3 : S1024x1024.Idx → EReal) (funext fun a => Fin.ext ?_)).trans (congrFun (Prefix.mean_found m c) (ix2 o k))
  match a with
  | ⟨0, _⟩ => show win0_1.index t (0 : Fin 2) * 1024 + 1 * o.val = o.val; omega
  | ⟨1, _⟩ => show win0_1.index t (1 : Fin 2) * 1024 + 1 * k.val = k.val; omega

/-- The standard deviation's block is the whole array of `exp(½ · logvar)`, at every point. -/
theorem std_block (c : Dev nD) (t : Fin cfg0.N) (o k : Fin 1024) :
    (iblk m c 2 t : Vec Ideal S1024x1024 .bf16) (ix2 o k)
      = Ideal.exp (Ideal.ofBits .f32 0x3F000000#32 * ((m ((c : Thread nD τ).loc main_arg2)) : S1024x1024.Idx → EReal) (ix2 o k)) := by
  obtain ⟨-, -, ⟨e0, e1⟩, -⟩ := block_index t
  show V m c main_v4 (((cfg0.win 2).blk t).view.emb (ix2 o k)) = _
  refine (congrArg (V m c main_v4 : S1024x1024.Idx → EReal) (funext fun a => Fin.ext ?_)).trans (Prefix.std_found_apply m c o k)
  match a with
  | ⟨0, _⟩ => show win0_2.index t (0 : Fin 2) * 1024 + 1 * o.val = o.val; omega
  | ⟨1, _⟩ => show win0_2.index t (1 : Fin 2) * 1024 + 1 * k.val = k.val; omega

/-- The bias row's block is the bias, at every point. -/
theorem bias_block (c : Dev nD) (t : Fin cfg0.N) (o : Fin 1024) :
    (iblk m c 4 t : Vec Ideal S1x1024 .f32) (ix2 (0 : Fin 1) o)
      = ((m ((c : Thread nD τ).loc main_arg3)) : S1024.Idx → EReal) (ix1 o) := by
  obtain ⟨-, -, -, -, ⟨e0, e1⟩, -⟩ := block_index t
  show V m c main_v5 (((cfg0.win 4).blk t).view.emb (ix2 (0 : Fin 1) o)) = _
  refine (congrArg (V m c main_v5 : S1x1024.Idx → EReal) (funext fun a => Fin.ext ?_)).trans (Prefix.bias_found_apply m c (0 : Fin 1) o)
  match a with
  | ⟨0, _⟩ => show win0_4.index t (0 : Fin 2) * 1 + 1 * 0 = 0; omega
  | ⟨1, _⟩ => show win0_4.index t (1 : Fin 2) * 1024 + 1 * o.val = o.val; omega

/-! ## What a point writes back -/

/-- Entry `(u, l, o)` of what the body stores at point `t` is the layer at `(t, l, o)`. -/
theorem point_entry (c : Dev nD) (t : Fin cfg0.N) (u : Fin 1) (l : Fin 512) (o : Fin 1024) :
    k0_pay1 (iblk m c 0 t) (iblk m c 3 t) (iblk m c 1 t) (iblk m c 2 t) (iblk m c 4 t) (ix3 u l o)
      = Cert.SampledLinear.outAt (m ((c : Thread nD τ).loc main_arg0)) (m ((c : Thread nD τ).loc main_arg1)) (m ((c : Thread nD τ).loc main_arg2)) (m ((c : Thread nD τ).loc main_arg3)) (m ((c : Thread nD τ).loc main_arg4)) (batchOf t) l o := by
  refine (Body.stored_entry (iblk m c 0 t) (iblk m c 3 t) (iblk m c 1 t) (iblk m c 2 t) (iblk m c 4 t) u l o).trans ?_
  unfold Cert.SampledLinear.outAt Cert.SampledLinear.weight Cert.SampledLinear.std
  refine congrArg₂ (· + ·) (Finset.sum_congr rfl fun k _ => ?_) (bias_block m c t o)
  exact congrArg₂ (· * ·) (input_block m c t l k)
    (congrArg₂ (· + ·) (mean_block m c t o k) (congrArg₂ (· * ·) (noise_block m c t o k) (std_block m c t o k)))

/-- The result's block at point `t` is batch slice `t` of the result. -/
theorem result_block (t : Fin cfg0.N) (u : Fin 1) (l : Fin 512) (o : Fin 1024) :
    ((cfg0.win 5).blk t).view.emb (ix3 u l o) = (ix3 (batchOf t) l o : S32x512x1024.Idx) := by
  obtain ⟨-, -, -, -, -, ⟨e0, e1, e2⟩⟩ := block_index t
  have hu : u.val = 0 := by have := u.isLt; omega
  refine funext fun a => Fin.ext ?_
  match a with
  | ⟨0, _⟩ => show win0_5.index t (0 : Fin 3) * 1 + 1 * u.val = t.val; omega
  | ⟨1, _⟩ => show win0_5.index t (1 : Fin 3) * 512 + 1 * l.val = l.val; omega
  | ⟨2, _⟩ => show win0_5.index t (2 : Fin 3) * 1024 + 1 * o.val = o.val; omega

/-- What point `t` writes back is batch slice `t` of the layer of the argument arrays, read through its block. -/
theorem point_writes_layer_slice (c : Dev nD) (t : Fin cfg0.N) :
    (dats m 0 c).flushed 5 t = ((cfg0.win 5).blk t).view.read (Elt Ideal) (layer m c) := by
  show (cfg0.win 5).cut (grid0.coords t) ((dats m 0 c).after 5 t) = _
  rw [after0_5]
  unfold out0_5
  rw [View.canon_unit_zero zeros3]
  simp only [View.ld_unit_zero (S := S1x512x1024) zeros3, View.ld_unit_zero (S := S1x1024x1024) zeros3,
    View.ld_unit_zero (S := S1024x1024) zeros2, View.ld_unit_zero (S := S1x1024) zeros2]
  show (fun j : S1x512x1024.Idx => k0_pay1 (iblk m c 0 t) (iblk m c 3 t) (iblk m c 1 t) (iblk m c 2 t) (iblk m c 4 t) j)
    = fun j : S1x512x1024.Idx => layer m c (((cfg0.win 5).blk t).view.emb j)
  funext j
  obtain ⟨u, l, o, rfl⟩ : ∃ (u : Fin 1) (l : Fin 512) (o : Fin 1024), j = ix3 u l o := ⟨j 0, j 1, j 2, eq_ix3 j⟩
  show _ = layer m c (((cfg0.win 5).blk t).view.emb (ix3 u l o))
  rw [result_block t u l o]
  exact point_entry m c t u l o

/-! ## The blocks cover the result -/

/-- An index of the result is in point `t`'s block iff each coordinate is in the block's range on its axis. -/
theorem mem_block (t : Fin cfg0.N) (i : S32x512x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v6).slice (win0_5.rect t)).set ↔ _
  rw [View.set_slice_whole, Rect.mem_set_unit]
  exact Iff.rfl

/-- Index `(b, l, o)` is in the block of point `b`. -/
theorem covered (i : S32x512x1024.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  obtain ⟨-, -, -, -, -, ⟨e0, e1, e2⟩⟩ := block_index t
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- After the last point the result array holds the layer of the argument arrays at every index. -/
theorem result_is_layer (c : Dev nD) : (dats m 0 c).arrAt 5 cfg0.N = layer m c :=
  (dats m 0 c).arrAt_eq_of_cover 5 (layer m c) (fun t _ => point_writes_layer_slice m c t) covered

/-- The kernel's run, read: the result array at the layer of the arguments, the arguments unchanged. -/
theorem run_layer : θ_run defs (onTc (τ := τ) (main (F := Ideal))) ⟨m, fun _ => 0, ρ⟩ fun r => ∀ c : Dev nD,
      r.2.mem ((c : Thread nD τ).loc main_v6) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_is_layer m c), (h c).2⟩) (Cert.KernelIdeal.Value.run_blocks m ρ)

end Cert.KernelIdeal.Layer

end
-- ==== Proof.lean ====
/-
  A linear layer with a per-batch sampled weight, against its jnp reference, over the extended reals.

  Both programs compute, at batch element `b`, row `l`, output feature `o`,
      Σ_k x(b, l, k) · (mean(o, k) + noise(b, o, k) · exp(½ · logvar(o, k))) + bias(o)
  (Proof/SampledLinear.lean). The reference forms the sampled weight as one [32, 1024, 1024] array and contracts
  it with the input batch by batch (Proof/ReferenceIsLayer.lean). The kernel computes `exp(½ · logvar)` once
  before its grid (Proof/HostPrefix.lean), and at grid point `b` forms batch element `b`'s sampled weight,
  multiplies that element's 512 input rows by it into a zero accumulator and adds the bias row
  (Proof/BodyEntry.lean); the 32 blocks it writes back are the 32 batch slices of the result
  (Proof/GridCover.lean). Term by term the two sums are the same: both multiply the noise by the standard
  deviation in that order and add the product to the mean, both spell the half with the same binary32 word,
  changes of float format are the identity on extended reals, and a zero accumulator adds nothing. No law
  that needs finite entries is used, so the precondition is never opened.

  The three frames: the kernel's two are the generated frame runs; the reference's is its generated run with
  the result dropped. The idealization rewrote no operation, so `preserves` is `True`.
-/
import proofs.«103219_j7292854469138_2_alg».proof.Defs
import proofs.«103219_j7292854469138_2_alg».proof.Proof.Gen.Kernel
import proofs.«103219_j7292854469138_2_alg».proof.Proof.Gen.Kernel.Skeleton
import proofs.«103219_j7292854469138_2_alg».proof.Proof.Gen.Kernel.Launch
import proofs.«103219_j7292854469138_2_alg».proof.Proof.Gen.Kernel.Points
import proofs.«103219_j7292854469138_2_alg».proof.Proof.Gen.Kernel.Frame
import proofs.«103219_j7292854469138_2_alg».proof.Proof.Gen.KernelIdeal
import proofs.«103219_j7292854469138_2_alg».proof.Proof.Gen.KernelIdeal.Skeleton
import proofs.«103219_j7292854469138_2_alg».proof.Proof.Gen.KernelIdeal.Launch
import proofs.«103219_j7292854469138_2_alg».proof.Proof.Gen.KernelIdeal.Points
import proofs.«103219_j7292854469138_2_alg».proof.Proof.Gen.KernelIdeal.Frame
import proofs.«103219_j7292854469138_2_alg».proof.Proof.Gen.ReferenceIdeal
import proofs.«103219_j7292854469138_2_alg».proof.Proof.Gen.Pre_finite_inputs
import proofs.«103219_j7292854469138_2_alg».proof.Proof.Gen.KernelIdeal.Value
import proofs.«103219_j7292854469138_2_alg».proof.Proof.Gen.ReferenceIdeal.Run
import proofs.«103219_j7292854469138_2_alg».proof.Proof.Gen.ReferenceIdeal.Read
import proofs.«103219_j7292854469138_2_alg».proof.Proof.SampledLinear
import proofs.«103219_j7292854469138_2_alg».proof.Proof.ReferenceIsLayer
import proofs.«103219_j7292854469138_2_alg».proof.Proof.BodyEntry
import proofs.«103219_j7292854469138_2_alg».proof.Proof.HostPrefix
import proofs.«103219_j7292854469138_2_alg».proof.Proof.GridCover
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the idealization. -/
theorem preserves : Cert.preserves_Kernel_KernelIdeal := trivial

/-- From memories agreeing on the five arguments, the kernel's result array and the reference's both end at the
    sampled linear layer of those arguments. -/
theorem algebraic : Cert.algebraic_KernelIdeal_ReferenceIdeal := by
  intro m ρ m' ρ' _ hagree
  refine ⟨fun c => Cert.KernelIdeal.Layer.layer m c, Cert.KernelIdeal.Layer.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Layer.stage_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
